-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x1024 : Shape := ⟨3, ![4, 64, 1024]⟩
abbrev S4x8192x1024 : Shape := ⟨3, ![4, 8192, 1024]⟩
abbrev S_ : Shape := ⟨0, ![]⟩

class Facts : Prop where
  bcast_S_S4x64x1024 : S_.BroadcastsInDim S4x64x1024 (![] : Fin 0 → Fin S4x64x1024.rank)
  reducesTo_S4x64x1024_S_d0_1_2 : S4x64x1024.ReducesTo [0, 1, 2] S_
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_

variable [Facts]

def fn {F : FTy → Type} [FloatOps F] (main_arg0 : FVec F S4x64x1024 .f32) (main_arg1 : FVec F S4x8192x1024 .f32) : IVec S_ 1 :=
  let main_v0 : FVec F S4x64x1024 .f32 := Host.absf main_arg0
  let main_cst : FVec F S_ .f32 := constant S_ .f32 0x7F800000#32
  let main_v1 : FVec F S4x64x1024 .f32 := broadcastInDim S4x64x1024 ![] bcast_S_S4x64x1024 main_cst
  let main_v2 : IVec S4x64x1024 1 := cmpf .olt main_v0 main_v1
  let main_c : IVec S_ 1 := constantI S_ 1 1#1
  let main_v3 : IVec S_ 1 := (fun x v => Host.reduce IntOp.andi x v reducesTo_S4x64x1024_S_d0_1_2 h_S_) main_v2 main_c
  let main_v4 : FVec F S4x8192x1024 .f32 := Host.absf main_arg1
  let main_cst_0 : FVec F S_ .f32 := constant S_ .f32 0x7F800000#32
  let main_v5 : FVec F S4x8192x1024 .f32 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : IVec S_ 1 := andi main_v3 main_v7
  main_v8
-- ==== Kernel.lean ====
abbrev S4x64x1024 : Shape := ⟨3, ![4, 64, 1024]⟩
abbrev S4x8192x1024 : Shape := ⟨3, ![4, 8192, 1024]⟩
abbrev S1x2048x1024 : Shape := ⟨3, ![1, 2048, 1024]⟩
abbrev S1x64x1024 : Shape := ⟨3, ![1, 64, 1024]⟩
abbrev S1x1984x1024 : Shape := ⟨3, ![1, 1984, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4x64x1024, .f32⟩
  | .hbm, ⟨1, _⟩ => ⟨S4x8192x1024, .f32⟩
  | .hbm, ⟨2, _⟩ => ⟨S4x8192x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x2048x1024, .f32⟩
  | .local _ .vmem, ⟨7, _⟩ => ⟨S1x2048x1024, .f32⟩
  | _, _ => ⟨S4x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x1024_S1x1984x1024_0_64_0 : ∀ a, (![0, 64, 0] : Fin 3 → Nat) a + S1x1984x1024.size a ≤ S1x2048x1024.size a
  h_S1x1984x1024 : 0 < S1x1984x1024.numel
  inb_S1x2048x1024_S1x1984x1024_0_0_0 : ∀ a, (![0, 0, 0] : Fin 3 → Nat) a + S1x1984x1024.size a ≤ S1x2048x1024.size a
  inb_S1x64x1024_S1x64x1024_0_0_0 : ∀ a, (![0, 0, 0] : Fin 3 → Nat) a + S1x64x1024.size a ≤ S1x64x1024.size a
  h_S1x64x1024 : 0 < S1x64x1024.numel
  inb_S1x2048x1024_S1x64x1024_0_1984_0 : ∀ a, (![0, 1984, 0] : Fin 3 → Nat) a + S1x64x1024.size a ≤ S1x2048x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x8192x1024.size a
  hwx0_0 : ∀ i : grid0.Coords, EltTy.bits .f32 = 32 ∨ (Rect.block (s := S4x8192x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S4x8192x1024.size a
  hwx0_1 : ∀ i : grid0.Coords, EltTy.bits .f32 = 32 ∨ (Rect.block (s := S4x8192x1024) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S4x64x1024.size a
  hwx0_2 : ∀ i : grid0.Coords, EltTy.bits .f32 = 32 ∨ (Rect.block (s := S4x64x1024) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S4x8192x1024.size a
  hwx0_3 : ∀ i : grid0.Coords, EltTy.bits .f32 = 32 ∨ (Rect.block (s := S4x8192x1024) S1x2048x1024.size (cc0_transform_3 i) (hinb0_3 i)).WholeWords (EltTy.packing .f32)

variable [Facts₀]

abbrev win0_0 : Pipeline.Window sig grid0 :=
  Pipeline.Window.ofSpec (Memref.whole main_arg1) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x1024 : Shape := ⟨3, ![4, 64, 1024]⟩
abbrev S4x8192x1024 : Shape := ⟨3, ![4, 8192, 1024]⟩
abbrev S4x8128x1024 : Shape := ⟨3, ![4, 8128, 1024]⟩
abbrev S_ : Shape := ⟨0, ![]⟩
abbrev S1 : Shape := ⟨1, ![1]⟩

abbrev nBuf : Space → Nat
  | .hbm => 8
  | .vmem => 0
  | .smem => 0
  | _ => 0

abbrev bufTy : (tb : Table) → Fin (tcTables nBuf tb) → BufTy
  | .hbm, ⟨0, _⟩ => ⟨S4x64x1024, .f32⟩
  | .hbm, ⟨1, _⟩ => ⟨S4x8192x1024, .f32⟩
  | .hbm, ⟨2, _⟩ => ⟨S4x8128x1024, .f32⟩
  | .hbm, ⟨3, _⟩ => ⟨S4x64x1024, .f32⟩
  | .hbm, ⟨4, _⟩ => ⟨S4x8192x1024, .f32⟩
  | .hbm, ⟨5, _⟩ => ⟨S_, .i32⟩
  | .hbm, ⟨6, _⟩ => ⟨S1, .i32⟩
  | .hbm, ⟨7, _⟩ => ⟨S4x8192x1024, .f32⟩
  | _, _ => ⟨S4x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  slices_S4x8192x1024_S4x8128x1024_0_64_0 : S4x8192x1024.Slices ![0, 64, 0] S4x8128x1024
  slices_S4x8192x1024_S4x64x1024_0_0_0 : S4x8192x1024.Slices ![0, 0, 0] S4x64x1024
  concatenates_S4x8128x1024_S4x64x1024_S4x8192x1024_d1 : Shape.Concatenates [S4x8128x1024, S4x64x1024] S4x8192x1024 1
  bcast_S_S1 : S_.BroadcastsInDim S1 (![] : Fin 0 → Fin S1.rank)
  scatter_S4x8192x1024_S1_S4x64x1024_012_n_1_0_wf : ScatterDims.WF S4x8192x1024 S1 S4x64x1024 [0, 1, 2] [] [1] 0

variable [Facts₀]

def scatter_S4x8192x1024_S1_S4x64x1024_012_n_1_0 : ScatterDims S4x8192x1024 S1 S4x64x1024 where
  updateWindowDims := [0, 1, 2]
  insertedWindowDims := []
  scatterDimsToOperandDims := [1]
  indexVectorDim := 0
  wf := scatter_S4x8192x1024_S1_S4x64x1024_012_n_1_0_wf

class Facts : Prop extends Facts₀ where

variable [Facts]
-- ==== Proof.KernelBody.lean ====
/-
  The copy kernel's body on any four whole staging buffers, run once for each of its two control cases.

  The body moves rows.  Into the output block (2048 rows) it stores rows 64 … 2047 of the current cache block as rows
  0 … 1983, and the 64 rows of the head of the next cache block as rows 1984 … 2047.  On the last tile of a batch
  entry (second grid coordinate 3) it then stores the 64 rows of the new block over rows 1984 … 2047 again.  Before
  each store it also loads the rows it is about to overwrite and drops what it loaded.  So in either case the stores
  cover the output block, and what the block holds afterwards does not depend on what it held before.

  Each run is a pair: the list of pieces the stores leave in the output buffer (found by running the body), and the
  proof that from the three input buffers at given contents and the output buffer at any contents the body runs to
  its end, the inputs as they were and the output's buffer with those pieces written.
-/
import proofs.«179758_j11879879541211_1_alg».proof.Proof.Gen.Kernel.Launch
import proofs.«179758_j11879879541211_1_alg».proof.Proof.Gen.Kernel.Skeleton
import proofs.«179758_j11879879541211_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's one condition -/

/-- The body's condition: the second grid coordinate is 3 (the last tile of a batch entry). -/
abbrev lastTile (i : grid0.Coords) : Prop :=
  (Scalar.cmpi .ne (Scalar.extui (Scalar.cmpi .eq (BitVec.ofNat 32 (i 1).val) 3#32)) 0#32) = 1#1

/-- Over the 16 points of the grid it holds at the points 3, 7, 11, 15. -/
theorem lastTile_iff : ∀ t : Fin cfg0.N, lastTile (grid0.coords t) ↔ t.val % 4 = 3 :=
  (by decide +kernel : ∀ t : Fin grid0.N, lastTile (grid0.coords t) ↔ t.val % 4 = 3)

/-! ## The staging memrefs at a point -/

abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)

/-- One staging buffer of the output window, through which its contents are stated (the choice does not matter). -/
abbrev VOut : View sig .tc .vmem S1x2048x1024 .f32 := (Memref.whole cc0_stg3_0 : Memref sig .tc .vmem S1x2048x1024 .f32).view

/-! ## The two runs -/

set_option maxHeartbeats 1000000 in
/-- Not on the last tile: two stores, the shifted rows of the current block and the head of the next block. -/
noncomputable def runInner (c : Dev nD) (i : grid0.Coords)
    (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i)
    (x0 : Vec F S1x2048x1024 .f32) (x1 : Vec F S1x64x1024 .f32) (x2 : Vec F S1x64x1024 .f32) :
    { L : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__copy_kernel i arg2 harg2 arg3 harg3 arg4 harg4 arg5 harg5) K } := by
  refine ⟨?_, fun E K => ?run⟩
  case run =>
    simp only [cc0__copy_kernel_eq_skeleton]; unfold cc0__copy_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- On the last tile: a third store, the new block over the last 64 rows. -/
noncomputable def runLast (c : Dev nD) (i : grid0.Coords)
    (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i)
    (x0 : Vec F S1x2048x1024 .f32) (x1 : Vec F S1x64x1024 .f32) (x2 : Vec F S1x64x1024 .f32) :
    { L : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__copy_kernel i arg2 harg2 arg3 harg3 arg4 harg4 arg5 harg5) K } := by
  refine ⟨?_, fun E K => ?run⟩
  case run =>
    simp only [cc0__copy_kernel_eq_skeleton]; unfold cc0__copy_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.LibSharedFrame.lean ====
/-
  The frame run of a one-region pipeline program whose windows may SHARE an array.

  A kernel may be handed one array through several input windows (one window on the block it works on, another on the
  head of the next block, say).  The pipeline library's launch then asks how the array's buffer, held whole at the
  region's entry, is dealt among the windows on it (`hsplit`); everything else about the launch of a kernel that
  names no semaphore, no scratch and no generator state is the same for every such program and is stated here once:
  the invariant carried from point to point is the scoped rest alone, nothing is owed, the unscoped buffers that are
  no window's array bypass the region and are read back unchanged.  The conclusion is the library's `FramePost`:
  every window's array ends at what the library computes from the proof data (`Dat.arrAt`), every other unscoped
  buffer at its contents at the region's entry.
-/
import Idealize.ShloMosaic.Lib.Pipeline.Frame

noncomputable section

namespace Cert.Lib

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share arrays: `hsplit` deals the buffers behind the arrays, each whole at the
    region's entry, among the windows; the invariant is the scoped rest at every point (`hΦ`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (Ix := Unit) (Name := ℕ) (U := UR sig nD τ) (Lvl := ℕ) (cfgs p).spec c (V c)
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib

end
-- ==== Proof.KernelFrame.lean ====
/-
  The frame of the copy program: it runs to its end, faults nowhere and leaves its two argument arrays unchanged; and
  what the result array holds afterwards, as the library computes it from the proof data.

  The pipeline has four windows: the current cache block (2048 rows), the 64-row head of the next cache block, the new
  block (64 rows) and the output block (2048 rows).  The first two are windows on ONE array, the cache: its buffer,
  held whole when the region is entered, is dealt between them half and half, which is enough since both only read it.
  The proof data say: every input's staging buffer holds that window's block of its array at every point, fetched there
  or not; the output's staging buffer holds after the body what the body's stores leave, in the case the point is in
  (the last tile of a batch entry or not); nothing is carried from point to point.
-/
import proofs.«179758_j11879879541211_1_alg».proof.Proof.KernelBody
import proofs.«179758_j11879879541211_1_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave in the output's staging buffer -/

/-- Off the last tile the two stores tile the output block: rows 0 … 1983 and rows 1984 … 2047 (cut into blocks of 64
    rows, the common measure of the two, each block is under exactly one of them). -/
theorem coverInner (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i) (x0 : Vec F S1x2048x1024 .f32) (x1 : Vec F S1x64x1024 .f32) (x2 : Vec F S1x64x1024 .f32) (y : S1x2048x1024.Idx) :
    ∃ pc ∈ (runInner c i arg2 harg2 arg3 harg3 arg4 harg4 arg5 harg5 hc x0 x1 x2).1, y ∈ pc.1.set :=
  View.cover_of_tiledBy (runInner c i arg2 harg2 arg3 harg3 arg4 harg4 arg5 harg5 hc x0 x1 x2).1 ![1, 64, 1024] (by sl_kernel_rfl) y

/-- What the body leaves there off the last tile: its pieces read back. -/
def outInner (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i) (x0 : Vec F S1x2048x1024 .f32) (x1 : Vec F S1x64x1024 .f32) (x2 : Vec F S1x64x1024 .f32) : Vec F S1x2048x1024 .f32 :=
  VOut.read (Elt F) (VOut.writes (Elt F) VOut.junk (runInner c i arg2 harg2 arg3 harg3 arg4 harg4 arg5 harg5 hc x0 x1 x2).1)

/-- On the last tile the first store and the third already cover the block (the second lies under the third). -/
theorem coverLast (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i) (x0 : Vec F S1x2048x1024 .f32) (x1 : Vec F S1x64x1024 .f32) (x2 : Vec F S1x64x1024 .f32) (y : S1x2048x1024.Idx) :
    ∃ pc ∈ (runLast c i arg2 harg2 arg3 harg3 arg4 harg4 arg5 harg5 hc x0 x1 x2).1, y ∈ pc.1.set := by
  obtain ⟨p, hp, hy⟩ := View.cover_of_tiledBy (runLast c i arg2 harg2 arg3 harg3 arg4 harg4 arg5 harg5 hc x0 x1 x2).1.tail ![1, 64, 1024] (by sl_kernel_rfl) y
  exact ⟨p, List.mem_of_mem_tail hp, hy⟩

/-- What the body leaves there on the last tile: its pieces read back. -/
def outLast (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i) (x0 : Vec F S1x2048x1024 .f32) (x1 : Vec F S1x64x1024 .f32) (x2 : Vec F S1x64x1024 .f32) : Vec F S1x2048x1024 .f32 :=
  VOut.read (Elt F) (VOut.writes (Elt F) VOut.junk (runLast c i arg2 harg2 arg3 harg3 arg4 harg4 arg5 harg5 hc x0 x1 x2).1)

/-- What the output's staging buffer holds after the body at point `t`: the case the point is in, run at the point's
    staging memrefs and the three input blocks there. -/
def outAt (c : Dev nD) (t : Fin cfg0.N) : Vec F S1x2048x1024 .f32 :=
  if h : t.val % 4 = 3 then
    outLast c (grid0.coords t) (ms0 t) (hs0 t) (ms1 t) (hs1 t) (ms2 t) (hs2 t) (ms3 t) (hs3 t) ((lastTile_iff t).mpr h) (iblk m c 0 t) (iblk m c 1 t) (iblk m c 2 t)
  else
    outInner c (grid0.coords t) (ms0 t) (hs0 t) (ms1 t) (hs1 t) (ms2 t) (hs2 t) (ms3 t) (hs3 t) (fun h' => h ((lastTile_iff t).mp h')) (iblk m c 0 t) (iblk m c 1 t) (iblk m c 2 t)

theorem outAt_last (c : Dev nD) (t : Fin cfg0.N) (h : t.val % 4 = 3) :
    outAt m c t = outLast c (grid0.coords t) (ms0 t) (hs0 t) (ms1 t) (hs1 t) (ms2 t) (hs2 t) (ms3 t) (hs3 t) ((lastTile_iff t).mpr h) (iblk m c 0 t) (iblk m c 1 t) (iblk m c 2 t) := dif_pos h

theorem outAt_inner (c : Dev nD) (t : Fin cfg0.N) (h : ¬ t.val % 4 = 3) :
    outAt m c t = outInner c (grid0.coords t) (ms0 t) (hs0 t) (ms1 t) (hs1 t) (ms2 t) (hs2 t) (ms3 t) (hs3 t) (fun h' => h ((lastTile_iff t).mp h')) (iblk m c 0 t) (iblk m c 1 t) (iblk m c 2 t) := dif_neg h

/-! ## The proof data -/

/-- The arrays as the region finds them; after the body each input's buffer at its block and the output's at `outAt`;
    the invariant the scoped buffers that are no staging buffer (there are none); the cache's buffer dealt between its
    two windows half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not: where it is not fetched
    the block index has not moved. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point is on the last tile of its batch entry or
    not, and that case's run applies; the invariant passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h : t.val % 4 = 3
  · rw [outAt_last m c t h]
    unfold outLast
    iintro ⟨HΦ, Ho, ⟨%d0, H0⟩, ⟨%d1, H1⟩, ⟨%d2, H2⟩, ⟨%d3, H3⟩⟩
    iapply ((runLast c (grid0.coords t) _ _ _ _ _ _ _ _ ((lastTile_iff t).mpr h) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLast c _ _ _ _ _ _ _ _ _ _ _ _ _)
  · rw [outAt_inner m c t h]
    unfold outInner
    iintro ⟨HΦ, Ho, ⟨%d0, H0⟩, ⟨%d1, H1⟩, ⟨%d2, H2⟩, ⟨%d3, H3⟩⟩
    iapply ((runInner c (grid0.coords t) _ _ _ _ _ _ _ _ (fun h' => h ((lastTile_iff t).mp h')) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverInner c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibArrayShares.lean ====
/-
  The arrays of a pipeline's windows, each a whole buffer, are the buffers themselves, held at each window's share.
  Stated once for any pipeline: it is what one rewrites by before dealing a shared buffer among its windows.
-/
import Idealize.ShloMosaic.Lib.Pipeline.Frame

noncomputable section

namespace Cert.Lib

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Idealize.SL.Sem.Labels}

local notation "𝕄" => MT nD τ sig Unit Val ℕ (UR sig nD τ) ℕ

/-- The windows' arrays, each a whole buffer, as the buffers themselves held at each window's share. -/
theorem arrays_eq_shares {cfg : Cfg sig Λ₀} {c : Dev nD} (dat : Dat τ Val Unit ℕ (UR sig nD τ) ℕ cfg c)
    (harr : ∀ w, (cfg.spec w).arr.IsWhole)
    (A : (w : Fin cfg.W) → Buf Val ((cfg.win w).arr.view.loc (c.tc : Thread nD τ))) :
    dat.arrays A = bigSep Finset.univ fun w => (((c.tc : Thread nD τ).loc (arrRef cfg.spec w)) ↦{dat.share w} A w : sProp 𝕄) := by
  unfold Dat.arrays
  exact bigSep_congr fun w _ => by rw [(harr w).set_eq_univ]

end Cert.Lib

end
-- ==== Proof.KernelRun.lean ====
/-
  The run of the copy program and its frame.

  When the region is entered the cache's buffer is held whole.  Both of its windows only read it, so it is dealt between
  them in two halves of the full share; the new block's buffer and the result's buffer go to their one window whole.
  With that, the launch of a pipeline whose windows share an array gives the run: the program runs to its end, and
  afterwards every window's array holds what the library computes from the proof data — an input its contents at the
  start — and the arguments are as they were.
-/
import proofs.«179758_j11879879541211_1_alg».proof.Proof.KernelFrame
import proofs.«179758_j11879879541211_1_alg».proof.Proof.LibArrayShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-! ## The shares -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The three buffers behind the four windows' arrays, each whole at its contents at the region's entry, make the
    windows' arrays: the cache's buffer split along its share between its two windows. -/
theorem hsplit (c : Dev nD) :
    Pipeline.arrBufs (Ix := Unit) (Name := ℕ) (U := UR sig nD τ) (Lvl := ℕ) spec0 c (V m c)
      ⊢ (dats m 0 c).arrays ((dats m 0 c).arrAt · 0) := by
  rw [Cert.Lib.arrays_eq_shares (dats m 0 c) arr_whole0, bigSep_W0]
  unfold Pipeline.arrBufs
  have e : ∀ Φ : Ref sig .tc → sProp 𝕄, bigSep (Finset.univ.image (Pipeline.arrRef spec0)) Φ = iprop(Φ main_arg1 ∗ Φ main_arg0 ∗ Φ main_v0) :=
    fun Φ => bigSep_eq_bigSepL_of_eq [main_arg1, main_arg0, main_v0] (by decide) (by decide) Φ
  rw [e]
  iintro ⟨Hc, Hx, Ho⟩
  ihave Hc2 := (pointsTo_share (PosShare.mem_left_op_right fullShare)).1 $$ Hc
  icases Hc2 with ⟨Hl, Hr⟩
  isplitl [Hl]; · iexact Hl
  isplitl [Hr]; · iexact Hr
  isplitl [Hx]; · iexact Hx
  iexact Ho

/-! ## The run and the frame -/

set_option backward.isDefEq.respectTransparency.types false in
/-- Every weakly fair execution of the program terminates, and every final state has each window's array at what the
    library computes from the proof data. -/
theorem run_main : θ_run defs (onTc (τ := τ) (main (F := F))) (s₀ m ρ) (Pipeline.FramePost cfgs (dats m) 0 (V m)) :=
  Cert.Lib.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- info: 'Cert.Kernel.Hand.run_main' depends on axioms: [propext, Classical.choice, Quot.sound] -/
#guard_msgs in #print axioms run_main

/-- THE FRAME: the program runs to its end and its two argument arrays end unchanged — the new block is window 2's
    array, the cache window 0's, and an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 2).trans (((dats m 0 c).arrAt_in 2 rfl _).trans (A_eq m c 2)),
       ((h c).1 0).trans (((dats m 0 c).arrAt_in 0 rfl _).trans (A_eq m c 0))⟩)
    (run_main m ρ)

end Cert.Kernel.Hand

end
-- ==== Proof.IdealBody.lean ====
/-
  The copy kernel's body on any four whole staging buffers, run once for each of its two control cases.

  The body moves rows.  Into the output block (2048 rows) it stores rows 64 … 2047 of the current cache block as rows
  0 … 1983, and the 64 rows of the head of the next cache block as rows 1984 … 2047.  On the last tile of a batch
  entry (second grid coordinate 3) it then stores the 64 rows of the new block over rows 1984 … 2047 again.  Before
  each store it also loads the rows it is about to overwrite and drops what it loaded.  So in either case the stores
  cover the output block, and what the block holds afterwards does not depend on what it held before.

  Each run is a pair: the list of pieces the stores leave in the output buffer (found by running the body), and the
  proof that from the three input buffers at given contents and the output buffer at any contents the body runs to
  its end, the inputs as they were and the output's buffer with those pieces written.
-/
import proofs.«179758_j11879879541211_1_alg».proof.Proof.Gen.KernelIdeal.Launch
import proofs.«179758_j11879879541211_1_alg».proof.Proof.Gen.KernelIdeal.Skeleton
import proofs.«179758_j11879879541211_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s buffers when the region is entered: as launched (the program is the region alone). -/
abbrev V (c : Dev nD) (b : Ref sig .tc) : Buf (Elt F) ((c : Thread nD τ).loc b) := m ((c : Thread nD τ).loc b)

/-- The program up to the region is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's one condition -/

/-- The body's condition: the second grid coordinate is 3 (the last tile of a batch entry). -/
abbrev lastTile (i : grid0.Coords) : Prop :=
  (Scalar.cmpi .ne (Scalar.extui (Scalar.cmpi .eq (BitVec.ofNat 32 (i 1).val) 3#32)) 0#32) = 1#1

/-- Over the 16 points of the grid it holds at the points 3, 7, 11, 15. -/
theorem lastTile_iff : ∀ t : Fin cfg0.N, lastTile (grid0.coords t) ↔ t.val % 4 = 3 :=
  (by decide +kernel : ∀ t : Fin grid0.N, lastTile (grid0.coords t) ↔ t.val % 4 = 3)

/-! ## The staging memrefs at a point -/

abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x64x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)

/-- One staging buffer of the output window, through which its contents are stated (the choice does not matter). -/
abbrev VOut : View sig .tc .vmem S1x2048x1024 .f32 := (Memref.whole cc0_stg3_0 : Memref sig .tc .vmem S1x2048x1024 .f32).view

/-! ## The two runs -/

set_option maxHeartbeats 1000000 in
/-- Not on the last tile: two stores, the shifted rows of the current block and the head of the next block. -/
noncomputable def runInner (c : Dev nD) (i : grid0.Coords)
    (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i)
    (x0 : Vec F S1x2048x1024 .f32) (x1 : Vec F S1x64x1024 .f32) (x2 : Vec F S1x64x1024 .f32) :
    { L : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__copy_kernel i arg2 harg2 arg3 harg3 arg4 harg4 arg5 harg5) K } := by
  refine ⟨?_, fun E K => ?run⟩
  case run =>
    simp only [cc0__copy_kernel_eq_skeleton]; unfold cc0__copy_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- On the last tile: a third store, the new block over the last 64 rows. -/
noncomputable def runLast (c : Dev nD) (i : grid0.Coords)
    (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i)
    (x0 : Vec F S1x2048x1024 .f32) (x1 : Vec F S1x64x1024 .f32) (x2 : Vec F S1x64x1024 .f32) :
    { L : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__copy_kernel i arg2 harg2 arg3 harg3 arg4 harg4 arg5 harg5) K } := by
  refine ⟨?_, fun E K => ?run⟩
  case run =>
    simp only [cc0__copy_kernel_eq_skeleton]; unfold cc0__copy_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.IdealFrame.lean ====
/-
  The frame of the copy program: it runs to its end, faults nowhere and leaves its two argument arrays unchanged; and
  what the result array holds afterwards, as the library computes it from the proof data.

  The pipeline has four windows: the current cache block (2048 rows), the 64-row head of the next cache block, the new
  block (64 rows) and the output block (2048 rows).  The first two are windows on ONE array, the cache: its buffer,
  held whole when the region is entered, is dealt between them half and half, which is enough since both only read it.
  The proof data say: every input's staging buffer holds that window's block of its array at every point, fetched there
  or not; the output's staging buffer holds after the body what the body's stores leave, in the case the point is in
  (the last tile of a batch entry or not); nothing is carried from point to point.
-/
import proofs.«179758_j11879879541211_1_alg».proof.Proof.IdealBody
import proofs.«179758_j11879879541211_1_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave in the output's staging buffer -/

/-- Off the last tile the two stores tile the output block: rows 0 … 1983 and rows 1984 … 2047 (cut into blocks of 64
    rows, the common measure of the two, each block is under exactly one of them). -/
theorem coverInner (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i) (x0 : Vec F S1x2048x1024 .f32) (x1 : Vec F S1x64x1024 .f32) (x2 : Vec F S1x64x1024 .f32) (y : S1x2048x1024.Idx) :
    ∃ pc ∈ (runInner c i arg2 harg2 arg3 harg3 arg4 harg4 arg5 harg5 hc x0 x1 x2).1, y ∈ pc.1.set :=
  View.cover_of_tiledBy (runInner c i arg2 harg2 arg3 harg3 arg4 harg4 arg5 harg5 hc x0 x1 x2).1 ![1, 64, 1024] (by sl_kernel_rfl) y

/-- What the body leaves there off the last tile: its pieces read back. -/
def outInner (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i) (x0 : Vec F S1x2048x1024 .f32) (x1 : Vec F S1x64x1024 .f32) (x2 : Vec F S1x64x1024 .f32) : Vec F S1x2048x1024 .f32 :=
  VOut.read (Elt F) (VOut.writes (Elt F) VOut.junk (runInner c i arg2 harg2 arg3 harg3 arg4 harg4 arg5 harg5 hc x0 x1 x2).1)

/-- On the last tile the first store and the third already cover the block (the second lies under the third). -/
theorem coverLast (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i) (x0 : Vec F S1x2048x1024 .f32) (x1 : Vec F S1x64x1024 .f32) (x2 : Vec F S1x64x1024 .f32) (y : S1x2048x1024.Idx) :
    ∃ pc ∈ (runLast c i arg2 harg2 arg3 harg3 arg4 harg4 arg5 harg5 hc x0 x1 x2).1, y ∈ pc.1.set := by
  obtain ⟨p, hp, hy⟩ := View.cover_of_tiledBy (runLast c i arg2 harg2 arg3 harg3 arg4 harg4 arg5 harg5 hc x0 x1 x2).1.tail ![1, 64, 1024] (by sl_kernel_rfl) y
  exact ⟨p, List.mem_of_mem_tail hp, hy⟩

/-- What the body leaves there on the last tile: its pieces read back. -/
def outLast (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i) (x0 : Vec F S1x2048x1024 .f32) (x1 : Vec F S1x64x1024 .f32) (x2 : Vec F S1x64x1024 .f32) : Vec F S1x2048x1024 .f32 :=
  VOut.read (Elt F) (VOut.writes (Elt F) VOut.junk (runLast c i arg2 harg2 arg3 harg3 arg4 harg4 arg5 harg5 hc x0 x1 x2).1)

/-- What the output's staging buffer holds after the body at point `t`: the case the point is in, run at the point's
    staging memrefs and the three input blocks there. -/
def outAt (c : Dev nD) (t : Fin cfg0.N) : Vec F S1x2048x1024 .f32 :=
  if h : t.val % 4 = 3 then
    outLast c (grid0.coords t) (ms0 t) (hs0 t) (ms1 t) (hs1 t) (ms2 t) (hs2 t) (ms3 t) (hs3 t) ((lastTile_iff t).mpr h) (iblk m c 0 t) (iblk m c 1 t) (iblk m c 2 t)
  else
    outInner c (grid0.coords t) (ms0 t) (hs0 t) (ms1 t) (hs1 t) (ms2 t) (hs2 t) (ms3 t) (hs3 t) (fun h' => h ((lastTile_iff t).mp h')) (iblk m c 0 t) (iblk m c 1 t) (iblk m c 2 t)

theorem outAt_last (c : Dev nD) (t : Fin cfg0.N) (h : t.val % 4 = 3) :
    outAt m c t = outLast c (grid0.coords t) (ms0 t) (hs0 t) (ms1 t) (hs1 t) (ms2 t) (hs2 t) (ms3 t) (hs3 t) ((lastTile_iff t).mpr h) (iblk m c 0 t) (iblk m c 1 t) (iblk m c 2 t) := dif_pos h

theorem outAt_inner (c : Dev nD) (t : Fin cfg0.N) (h : ¬ t.val % 4 = 3) :
    outAt m c t = outInner c (grid0.coords t) (ms0 t) (hs0 t) (ms1 t) (hs1 t) (ms2 t) (hs2 t) (ms3 t) (hs3 t) (fun h' => h ((lastTile_iff t).mp h')) (iblk m c 0 t) (iblk m c 1 t) (iblk m c 2 t) := dif_neg h

/-! ## The proof data -/

/-- The arrays as the region finds them; after the body each input's buffer at its block and the output's at `outAt`;
    the invariant the scoped buffers that are no staging buffer (there are none); the cache's buffer dealt between its
    two windows half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not: where it is not fetched
    the block index has not moved. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' buffers hold their blocks; the point is on the last tile of its batch entry or
    not, and that case's run applies; the invariant passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h : t.val % 4 = 3
  · rw [outAt_last m c t h]
    unfold outLast
    iintro ⟨HΦ, Ho, ⟨%d0, H0⟩, ⟨%d1, H1⟩, ⟨%d2, H2⟩, ⟨%d3, H3⟩⟩
    iapply ((runLast c (grid0.coords t) _ _ _ _ _ _ _ _ ((lastTile_iff t).mpr h) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLast c _ _ _ _ _ _ _ _ _ _ _ _ _)
  · rw [outAt_inner m c t h]
    unfold outInner
    iintro ⟨HΦ, Ho, ⟨%d0, H0⟩, ⟨%d1, H1⟩, ⟨%d2, H2⟩, ⟨%d3, H3⟩⟩
    iapply ((runInner c (grid0.coords t) _ _ _ _ _ _ _ _ (fun h' => h ((lastTile_iff t).mp h')) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverInner c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
/-
  The run of the copy program and its frame.

  When the region is entered the cache's buffer is held whole.  Both of its windows only read it, so it is dealt between
  them in two halves of the full share; the new block's buffer and the result's buffer go to their one window whole.
  With that, the launch of a pipeline whose windows share an array gives the run: the program runs to its end, and
  afterwards every window's array holds what the library computes from the proof data — an input its contents at the
  start — and the arguments are as they were.
-/
import proofs.«179758_j11879879541211_1_alg».proof.Proof.IdealFrame
import proofs.«179758_j11879879541211_1_alg».proof.Proof.LibArrayShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep_eq_bigSepL_of_eq)

/-! ## The shares -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl

/-- The three buffers behind the four windows' arrays, each whole at its contents at the region's entry, make the
    windows' arrays: the cache's buffer split along its share between its two windows. -/
theorem hsplit (c : Dev nD) :
    Pipeline.arrBufs (Ix := Unit) (Name := ℕ) (U := UR sig nD τ) (Lvl := ℕ) spec0 c (V m c)
      ⊢ (dats m 0 c).arrays ((dats m 0 c).arrAt · 0) := by
  rw [Cert.Lib.arrays_eq_shares (dats m 0 c) arr_whole0, bigSep_W0]
  unfold Pipeline.arrBufs
  have e : ∀ Φ : Ref sig .tc → sProp 𝕄, bigSep (Finset.univ.image (Pipeline.arrRef spec0)) Φ = iprop(Φ main_arg1 ∗ Φ main_arg0 ∗ Φ main_v0) :=
    fun Φ => bigSep_eq_bigSepL_of_eq [main_arg1, main_arg0, main_v0] (by decide) (by decide) Φ
  rw [e]
  iintro ⟨Hc, Hx, Ho⟩
  ihave Hc2 := (pointsTo_share (PosShare.mem_left_op_right fullShare)).1 $$ Hc
  icases Hc2 with ⟨Hl, Hr⟩
  isplitl [Hl]; · iexact Hl
  isplitl [Hr]; · iexact Hr
  isplitl [Hx]; · iexact Hx
  iexact Ho

/-! ## The run and the frame -/

set_option backward.isDefEq.respectTransparency.types false in
/-- Every weakly fair execution of the program terminates, and every final state has each window's array at what the
    library computes from the proof data. -/
theorem run_main : θ_run defs (onTc (τ := τ) (main (F := F))) (s₀ m ρ) (Pipeline.FramePost cfgs (dats m) 0 (V m)) :=
  Cert.Lib.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- info: 'Cert.KernelIdeal.Hand.run_main' depends on axioms: [propext, Classical.choice, Quot.sound] -/
#guard_msgs in #print axioms run_main

/-- THE FRAME: the program runs to its end and its two argument arrays end unchanged — the new block is window 2's
    array, the cache window 0's, and an input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 2).trans (((dats m 0 c).arrAt_in 2 rfl _).trans (A_eq m c 2)),
       ((h c).1 0).trans (((dats m 0 c).arrAt_in 0 rfl _).trans (A_eq m c 0))⟩)
    (run_main m ρ)

end Cert.KernelIdeal.Hand

end
-- ==== Proof.IdealBlock.lean ====
/-
  What the output block holds after the body, entry by entry, as a function of the three input blocks.
-/
import proofs.«179758_j11879879541211_1_alg».proof.Proof.IdealFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## Reading one piece -/

/-- At an entry under the last write, the canonical contents are that write's payload. -/
theorem canon_cons_at {s : Shape} {e : EltTy} (r : Rect s) (w : r.shape.Idx → Elt F e) (L : List (View.Piece (Elt F) s e))
    (x : r.shape.Idx) (y : s.Idx) (hx : r.emb x = y) : View.canon (⟨r, w⟩ :: L) y = w x := by
  rw [← hx]; exact View.canon_cons_emb r w L x

/-- At an entry off the last write, the canonical contents are those of the earlier writes. -/
theorem canon_cons_off {s : Shape} {e : EltTy} (r : Rect s) (w : r.shape.Idx → Elt F e) (L : List (View.Piece (Elt F) s e))
    (y : s.Idx) (hy : y ∉ r.set) : View.canon (⟨r, w⟩ :: L) y = View.canon L y :=
  View.canon_cons_of_not_mem ⟨r, w⟩ L hy

/-- A load through a whole buffer that holds `X` reads `X` at the load's coordinates. -/
theorem readAt_unread {S : Shape} {e : EltTy} (arg : Memref sig .tc .vmem S e) (harg : arg.IsWhole) (R : LoadRect S)
    (X : S.Idx → Elt F e) (x : R.shape.Idx) :
    View.readAt (Elt F) arg.view R (harg.unread X) x = X (R.idx x) := by
  rw [View.readAt_apply, harg.read_unread]

/-! ## The coordinates -/

/-- An entry of the output block in rows 0 … 1983, as an entry of the first store's 1984-row rectangle. -/
abbrev lowIdx (j : S1x2048x1024.Idx) (h : (j 1).val < 1984) : (⟨3, ![1, 1984, 1024]⟩ : Shape).Idx :=
  ix3 (j 0) (⟨(j 1).val, h⟩ : Fin 1984) (j 2)

/-- An entry of the output block in rows 1984 … 2047, as an entry of a 64-row block. -/
abbrev highIdx (j : S1x2048x1024.Idx) (h : ¬ (j 1).val < 1984) : (⟨3, ![1, 64, 1024]⟩ : Shape).Idx :=
  ix3 (j 0) (⟨(j 1).val - 1984, by have h2 : (j 1).val < 2048 := (j 1).isLt; omega⟩ : Fin 64) (j 2)

/-- An entry in rows 0 … 1983 is not under the 64-row rectangle at row 1984. -/
theorem not_mem_high (j : S1x2048x1024.Idx) (h : (j 1).val < 1984) :
    j ∉ (Rect.unit (s := S1x2048x1024) ![0, 1984, 0] ![1, 64, 1024] inb_S1x2048x1024_S1x64x1024_0_1984_0).set := by
  rw [Rect.mem_set_unit]
  intro hm
  have h1 : 1984 ≤ (j 1).val := (hm 1).1
  omega

/-- It is the first store's rectangle at `lowIdx`. -/
theorem emb_lowIdx (j : S1x2048x1024.Idx) (h : (j 1).val < 1984) :
    (Rect.unit (s := S1x2048x1024) ![0, 0, 0] ![1, 1984, 1024] inb_S1x2048x1024_S1x1984x1024_0_0_0).emb (lowIdx j h) = j := by
  funext a
  match a with
  | ⟨0, _⟩ => apply Fin.ext; show 0 + 1 * (j 0).val = (j 0).val; omega
  | ⟨1, _⟩ => apply Fin.ext; show 0 + 1 * (j 1).val = (j 1).val; omega
  | ⟨2, _⟩ => apply Fin.ext; show 0 + 1 * (j 2).val = (j 2).val; omega

/-- The first store's payload was loaded 64 rows further down. -/
theorem idx_lowIdx (j : S1x2048x1024.Idx) (h : (j 1).val < 1984) :
    (Rect.unit (s := S1x2048x1024) ![0, 64, 0] ![1, 1984, 1024] inb_S1x2048x1024_S1x1984x1024_0_64_0).toLoadRect.idx (lowIdx j h)
      = ix3 (j 0) ⟨(j 1).val + 64, by omega⟩ (j 2) := by
  funext a
  match a with
  | ⟨0, _⟩ => apply Fin.ext; show 0 + 1 * (j 0).val = (j 0).val; omega
  | ⟨1, _⟩ => apply Fin.ext; show 64 + 1 * (j 1).val = (j 1).val + 64; omega
  | ⟨2, _⟩ => apply Fin.ext; show 0 + 1 * (j 2).val = (j 2).val; omega

/-- An entry in rows 1984 … 2047 is the 64-row rectangle at row 1984 at `highIdx`. -/
theorem emb_highIdx (j : S1x2048x1024.Idx) (h : ¬ (j 1).val < 1984) :
    (Rect.unit (s := S1x2048x1024) ![0, 1984, 0] ![1, 64, 1024] inb_S1x2048x1024_S1x64x1024_0_1984_0).emb (highIdx j h) = j := by
  funext a
  match a with
  | ⟨0, _⟩ => apply Fin.ext; show 0 + 1 * (j 0).val = (j 0).val; omega
  | ⟨1, _⟩ => apply Fin.ext; show 1984 + 1 * ((j 1).val - 1984) = (j 1).val; omega
  | ⟨2, _⟩ => apply Fin.ext; show 0 + 1 * (j 2).val = (j 2).val; omega

/-- A whole 64-row block is loaded at its own coordinates. -/
theorem idx_highIdx (j : S1x2048x1024.Idx) (h : ¬ (j 1).val < 1984) :
    (Rect.unit (s := S1x64x1024) ![0, 0, 0] ![1, 64, 1024] inb_S1x64x1024_S1x64x1024_0_0_0).toLoadRect.idx (highIdx j h)
      = ix3 (j 0) ⟨(j 1).val - 1984, by have h2 : (j 1).val < 2048 := (j 1).isLt; omega⟩ (j 2) := by
  funext a
  match a with
  | ⟨0, _⟩ => apply Fin.ext; show 0 + 1 * (j 0).val = (j 0).val; omega
  | ⟨1, _⟩ => apply Fin.ext; show 0 + 1 * ((j 1).val - 1984) = (j 1).val - 1984; omega
  | ⟨2, _⟩ => apply Fin.ext; show 0 + 1 * (j 2).val = (j 2).val; omega

/-! ## Off the last tile -/

/-- Rows 0 … 1983 hold the current cache block 64 rows further down. -/
theorem outInner_of_lt (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i) (x0 : Vec F S1x2048x1024 .f32) (x1 : Vec F S1x64x1024 .f32) (x2 : Vec F S1x64x1024 .f32)
    (j : S1x2048x1024.Idx) (h : (j 1).val < 1984) :
    outInner c i arg2 harg2 arg3 harg3 arg4 harg4 arg5 harg5 hc x0 x1 x2 j
      = x0 (ix3 (j 0) ⟨(j 1).val + 64, by omega⟩ (j 2)) := by
  unfold outInner
  rw [View.read_writes_junk_eq_canon]
  unfold runInner
  dsimp only
  rw [canon_cons_off _ _ _ j (not_mem_high j h), canon_cons_at _ _ _ (lowIdx j h) j (emb_lowIdx j h),
    readAt_unread, idx_lowIdx j h]
  rfl

/-- Rows 1984 … 2047 hold the head of the next cache block. -/
theorem outInner_of_not_lt (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i) (x0 : Vec F S1x2048x1024 .f32) (x1 : Vec F S1x64x1024 .f32) (x2 : Vec F S1x64x1024 .f32)
    (j : S1x2048x1024.Idx) (h : ¬ (j 1).val < 1984) :
    outInner c i arg2 harg2 arg3 harg3 arg4 harg4 arg5 harg5 hc x0 x1 x2 j
      = x1 (ix3 (j 0) ⟨(j 1).val - 1984, by have h2 : (j 1).val < 2048 := (j 1).isLt; omega⟩ (j 2)) := by
  unfold outInner
  rw [View.read_writes_junk_eq_canon]
  unfold runInner
  dsimp only
  rw [canon_cons_at _ _ _ (highIdx j h) j (emb_highIdx j h), readAt_unread, idx_highIdx j h]
  rfl

theorem outInner_apply (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : ¬ lastTile i) (x0 : Vec F S1x2048x1024 .f32) (x1 : Vec F S1x64x1024 .f32) (x2 : Vec F S1x64x1024 .f32)
    (j : S1x2048x1024.Idx) :
    outInner c i arg2 harg2 arg3 harg3 arg4 harg4 arg5 harg5 hc x0 x1 x2 j
      = if h : (j 1).val < 1984 then x0 (ix3 (j 0) ⟨(j 1).val + 64, by omega⟩ (j 2))
        else x1 (ix3 (j 0) ⟨(j 1).val - 1984, by have h2 : (j 1).val < 2048 := (j 1).isLt; omega⟩ (j 2)) := by
  by_cases h : (j 1).val < 1984
  · rw [dif_pos h]; exact outInner_of_lt c i arg2 harg2 arg3 harg3 arg4 harg4 arg5 harg5 hc x0 x1 x2 j h
  · rw [dif_neg h]; exact outInner_of_not_lt c i arg2 harg2 arg3 harg3 arg4 harg4 arg5 harg5 hc x0 x1 x2 j h

/-! ## On the last tile -/

/-- Rows 0 … 1983 hold the current cache block 64 rows further down. -/
theorem outLast_of_lt (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i) (x0 : Vec F S1x2048x1024 .f32) (x1 : Vec F S1x64x1024 .f32) (x2 : Vec F S1x64x1024 .f32)
    (j : S1x2048x1024.Idx) (h : (j 1).val < 1984) :
    outLast c i arg2 harg2 arg3 harg3 arg4 harg4 arg5 harg5 hc x0 x1 x2 j
      = x0 (ix3 (j 0) ⟨(j 1).val + 64, by omega⟩ (j 2)) := by
  unfold outLast
  rw [View.read_writes_junk_eq_canon]
  unfold runLast
  dsimp only
  rw [canon_cons_off _ _ _ j (not_mem_high j h), canon_cons_off _ _ _ j (not_mem_high j h),
    canon_cons_at _ _ _ (lowIdx j h) j (emb_lowIdx j h), readAt_unread, idx_lowIdx j h]
  rfl

/-- Rows 1984 … 2047 hold the new block: the last store lies over the one before it. -/
theorem outLast_of_not_lt (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i) (x0 : Vec F S1x2048x1024 .f32) (x1 : Vec F S1x64x1024 .f32) (x2 : Vec F S1x64x1024 .f32)
    (j : S1x2048x1024.Idx) (h : ¬ (j 1).val < 1984) :
    outLast c i arg2 harg2 arg3 harg3 arg4 harg4 arg5 harg5 hc x0 x1 x2 j
      = x2 (ix3 (j 0) ⟨(j 1).val - 1984, by have h2 : (j 1).val < 2048 := (j 1).isLt; omega⟩ (j 2)) := by
  unfold outLast
  rw [View.read_writes_junk_eq_canon]
  unfold runLast
  dsimp only
  rw [canon_cons_at _ _ _ (highIdx j h) j (emb_highIdx j h), readAt_unread, idx_highIdx j h]
  rfl

theorem outLast_apply (c : Dev nD) (i : grid0.Coords) (arg2 : Memref sig .tc .vmem S1x2048x1024 .f32) (harg2 : arg2.IsWhole) (arg3 : Memref sig .tc .vmem S1x64x1024 .f32) (harg3 : arg3.IsWhole)
    (arg4 : Memref sig .tc .vmem S1x64x1024 .f32) (harg4 : arg4.IsWhole) (arg5 : Memref sig .tc .vmem S1x2048x1024 .f32) (harg5 : arg5.IsWhole)
    (hc : lastTile i) (x0 : Vec F S1x2048x1024 .f32) (x1 : Vec F S1x64x1024 .f32) (x2 : Vec F S1x64x1024 .f32)
    (j : S1x2048x1024.Idx) :
    outLast c i arg2 harg2 arg3 harg3 arg4 harg4 arg5 harg5 hc x0 x1 x2 j
      = if h : (j 1).val < 1984 then x0 (ix3 (j 0) ⟨(j 1).val + 64, by omega⟩ (j 2))
        else x2 (ix3 (j 0) ⟨(j 1).val - 1984, by have h2 : (j 1).val < 2048 := (j 1).isLt; omega⟩ (j 2)) := by
  by_cases h : (j 1).val < 1984
  · rw [dif_pos h]; exact outLast_of_lt c i arg2 harg2 arg3 harg3 arg4 harg4 arg5 harg5 hc x0 x1 x2 j h
  · rw [dif_neg h]; exact outLast_of_not_lt c i arg2 harg2 arg3 harg3 arg4 harg4 arg5 harg5 hc x0 x1 x2 j h

end Cert.KernelIdeal.Hand

end
-- ==== Proof.Rolled.lean ====
/-
  The result both programs compute, as one function of the two argument arrays.

  The cache holds 8192 rows per batch entry and the new block 64.  The result's row `r` of a batch entry is the
  cache's row `r + 64` while `r < 8128` (the cache moved up by 64 rows, its first 64 rows dropped), and the new
  block's row `r - 8128` for the last 64 rows.  No arithmetic is done on the entries: the function only says
  which entry of which argument each entry of the result is, so it is stated for entries of any type.
-/
import Idealize.ShloMosaic.Lib.ValueIdx

namespace Cert.Rolled

open Idealize.ShloMosaic Idealize.ShloMosaic.ValueIdx

/-- The shape of the new block: 4 batch entries, 64 rows, 1024 columns. -/
abbrev SNew : Shape := ⟨3, ![4, 64, 1024]⟩
/-- The shape of the cache and of the result: 4 batch entries, 8192 rows, 1024 columns. -/
abbrev SCache : Shape := ⟨3, ![4, 8192, 1024]⟩

/-- Row `r < 8128` of the result is row `r + 64` of the cache. -/
abbrev cacheRow (r : Fin 8192) (h : r.val < 8128) : Fin 8192 := ⟨r.val + 64, by omega⟩
/-- Row `r ≥ 8128` of the result is row `r - 8128` of the new block. -/
abbrev newRow (r : Fin 8192) (h : ¬ r.val < 8128) : Fin 64 := ⟨r.val - 8128, by have := r.isLt; omega⟩

/-- The cache moved up by 64 rows with the new block written over its last 64 rows, entry by entry. -/
def rolled {α : Type} (x : SNew.Idx → α) (cache : SCache.Idx → α) : SCache.Idx → α := fun j =>
  if h : (j 1).val < 8128 then cache (ix3 (j 0) (cacheRow (j 1) h) (j 2))
  else x (ix3 (j 0) (newRow (j 1) h) (j 2))

theorem rolled_of_lt {α : Type} (x : SNew.Idx → α) (cache : SCache.Idx → α) (j : SCache.Idx) (h : (j 1).val < 8128) :
    rolled x cache j = cache (ix3 (j 0) (cacheRow (j 1) h) (j 2)) := dif_pos h

theorem rolled_of_not_lt {α : Type} (x : SNew.Idx → α) (cache : SCache.Idx → α) (j : SCache.Idx) (h : ¬ (j 1).val < 8128) :
    rolled x cache j = x (ix3 (j 0) (newRow (j 1) h) (j 2)) := dif_neg h

end Cert.Rolled
-- ==== Proof.IdealValue.lean ====
/-
  What the copy program leaves in its result array: the cache moved up by 64 rows, the new block in the last 64 rows.

  Point `t` of the 4 × 4 grid works on batch entry `t / 4` and on tile `t % 4` of 2048 rows.  Its output block is rows
  `2048·(t % 4) + r`, `r < 2048`, of that batch entry.  For `r < 1984` the body stored there row `r + 64` of the current
  cache block, which is the cache's row `2048·(t % 4) + r + 64`.  For `r ≥ 1984` it stored, off the last tile, row
  `r - 1984` of the head of the next cache block — the cache's row `2048·(t % 4 + 1) + r - 1984`, the same row
  `2048·(t % 4) + r + 64` — and on the last tile row `r - 1984` of the new block, where `2048·3 + r ≥ 8128`.  So every
  point writes back its block of ONE function of the two arguments, and the sixteen blocks tile the result array.
-/
import proofs.«179758_j11879879541211_1_alg».proof.Proof.IdealRun
import proofs.«179758_j11879879541211_1_alg».proof.Proof.IdealBlock
import proofs.«179758_j11879879541211_1_alg».proof.Proof.Rolled
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Rolled

/-! ## The index maps over the grid -/

/-- The four windows' block indices at each of the 16 points, decided once. -/
theorem idx_facts : ∀ t : Fin cfg0.N,
    win0_3.index t (0 : Fin 3) = t.val / 4 ∧ win0_3.index t (1 : Fin 3) = t.val % 4 ∧ win0_3.index t (2 : Fin 3) = 0
    ∧ win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = (if t.val % 4 = 3 then 127 else (t.val % 4 + 1) * 32)
    ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-! ## What a point writes back -/

/-- Point `t` writes back its block of `rolled` of the two arguments. -/
theorem flushed3_eq (c : Dev nD) (t : Fin cfg0.N) :
    (dats m 0 c).flushed 3 t = ((cfg0.win 3).blk t).view.read (Elt F) (rolled (V m c main_arg0) (V m c main_arg1)) := by
  show (cfg0.win 3).cut (grid0.coords t) ((dats m 0 c).after 3 t) = _
  rw [after3]
  obtain ⟨e30, e31, e32, e00, e01, e02, e10, e11, e12, e20, e21, e22⟩ := idx_facts t
  have hN : t.val < 16 := lt_of_lt_of_eq t.isLt N_0
  funext j
  have hj0 : (j 0).val < 1 := (j 0).isLt
  have hj1 : (j 1).val < 2048 := (j 1).isLt
  have hj2 : (j 2).val < 1024 := (j 2).isLt
  show outAt m c t j = rolled (V m c main_arg0) (V m c main_arg1) (((cfg0.win 3).blk t).view.emb j)
  have hi0 : ((((cfg0.win 3).blk t).view.emb j) 0).val = t.val / 4 := by
    show win0_3.index t (0 : Fin 3) * 1 + 1 * (j 0).val = _; omega
  have hi1 : ((((cfg0.win 3).blk t).view.emb j) 1).val = t.val % 4 * 2048 + (j 1).val := by
    show win0_3.index t (1 : Fin 3) * 2048 + 1 * (j 1).val = _; omega
  have hi2 : ((((cfg0.win 3).blk t).view.emb j) 2).val = (j 2).val := by
    show win0_3.index t (2 : Fin 3) * 1024 + 1 * (j 2).val = _; omega
  generalize ((cfg0.win 3).blk t).view.emb j = i at hi0 hi1 hi2 ⊢
  by_cases h : t.val % 4 = 3
  · rw [outAt_last m c t h, outLast_apply]
    by_cases hj : (j 1).val < 1984
    · rw [dif_pos hj, rolled_of_lt _ _ i (by omega)]
      show V m c main_arg1 (((cfg0.win 0).blk t).view.emb _) = V m c main_arg1 _
      congr 1; funext a; apply Fin.ext
      match a with
      | ⟨0, _⟩ => show win0_0.index t (0 : Fin 3) * 1 + 1 * (j 0).val = (i 0).val; omega
      | ⟨1, _⟩ => show win0_0.index t (1 : Fin 3) * 2048 + 1 * ((j 1).val + 64) = (i 1).val + 64; omega
      | ⟨2, _⟩ => show win0_0.index t (2 : Fin 3) * 1024 + 1 * (j 2).val = (i 2).val; omega
    · rw [dif_neg hj, rolled_of_not_lt _ _ i (by omega)]
      show V m c main_arg0 (((cfg0.win 2).blk t).view.emb _) = V m c main_arg0 _
      congr 1; funext a; apply Fin.ext
      match a with
      | ⟨0, _⟩ => show win0_2.index t (0 : Fin 3) * 1 + 1 * (j 0).val = (i 0).val; omega
      | ⟨1, _⟩ => show win0_2.index t (1 : Fin 3) * 64 + 1 * ((j 1).val - 1984) = (i 1).val - 8128; omega
      | ⟨2, _⟩ => show win0_2.index t (2 : Fin 3) * 1024 + 1 * (j 2).val = (i 2).val; omega
  · rw [outAt_inner m c t h, outInner_apply]
    rw [if_neg h] at e11
    by_cases hj : (j 1).val < 1984
    · rw [dif_pos hj, rolled_of_lt _ _ i (by omega)]
      show V m c main_arg1 (((cfg0.win 0).blk t).view.emb _) = V m c main_arg1 _
      congr 1; funext a; apply Fin.ext
      match a with
      | ⟨0, _⟩ => show win0_0.index t (0 : Fin 3) * 1 + 1 * (j 0).val = (i 0).val; omega
      | ⟨1, _⟩ => show win0_0.index t (1 : Fin 3) * 2048 + 1 * ((j 1).val + 64) = (i 1).val + 64; omega
      | ⟨2, _⟩ => show win0_0.index t (2 : Fin 3) * 1024 + 1 * (j 2).val = (i 2).val; omega
    · rw [dif_neg hj, rolled_of_lt _ _ i (by omega)]
      show V m c main_arg1 (((cfg0.win 1).blk t).view.emb _) = V m c main_arg1 _
      congr 1; funext a; apply Fin.ext
      match a with
      | ⟨0, _⟩ => show win0_1.index t (0 : Fin 3) * 1 + 1 * (j 0).val = (i 0).val; omega
      | ⟨1, _⟩ => show win0_1.index t (1 : Fin 3) * 64 + 1 * ((j 1).val - 1984) = (i 1).val + 64; omega
      | ⟨2, _⟩ => show win0_1.index t (2 : Fin 3) * 1024 + 1 * (j 2).val = (i 2).val; omega

/-! ## The sixteen blocks tile the result -/

/-- An index of the result array is in point `t`'s block iff each coordinate is in the block's range on its axis. -/
theorem mem_blk3 (t : Fin cfg0.N) (i : S4x8192x1024.Idx) :
    i ∈ ((cfg0.win 3).blk t).view.set ↔ ∀ a : Fin 3, win0_3.index t a * S1x2048x1024.size a ≤ (i a).val
      ∧ (i a).val < win0_3.index t a * S1x2048x1024.size a + S1x2048x1024.size a := by
  show i ∈ ((View.whole main_v0).slice (win0_3.rect t)).set ↔ _
  rw [View.set_slice_whole, Rect.mem_set_unit]
  exact Iff.rfl

/-- Entry `(b, r, d)` of the result is in the block of the point `4·b + r / 2048`, which is written back. -/
theorem cover3 (i : S4x8192x1024.Idx) :
    ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 1024 := (i 2).isLt
  have hlt : (i 0).val * 4 + (i 1).val / 2048 < cfg0.N := by rw [show cfg0.N = 16 from N_0]; omega
  refine ⟨⟨(i 0).val * 4 + (i 1).val / 2048, hlt⟩, flush0_3 _, ?_⟩
  rw [mem_blk3]
  obtain ⟨e30, e31, e32, -⟩ := idx_facts ⟨(i 0).val * 4 + (i 1).val / 2048, hlt⟩
  dsimp only at e30 e31 e32
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 2048 ≤ (i 1).val ∧ (i 1).val < win0_3.index _ (1 : Fin 3) * 2048 + 2048; omega
  | ⟨2, _⟩ => show win0_3.index _ (2 : Fin 3) * 1024 ≤ (i 2).val ∧ (i 2).val < win0_3.index _ (2 : Fin 3) * 1024 + 1024; omega

/-- THE RESULT ARRAY after the run is `rolled` of the two arguments. -/
theorem final3 (c : Dev nD) : (dats m 0 c).arrAt 3 cfg0.N = rolled (V m c main_arg0) (V m c main_arg1) :=
  (dats m 0 c).arrAt_eq_of_cover 3 _ (fun t _ => flushed3_eq m c t) cover3

/-- The run, read: the result array ends at `rolled` of the arguments' contents at the start, the arguments unchanged. -/
theorem run : θ_run defs (onTc (τ := τ) (main (F := F))) ⟨m, fun _ => 0, ρ⟩ fun r => ∀ c : Dev nD,
      r.2.mem ((c.tc : Thread nD τ).loc main_v0)
        = rolled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).1 3).trans (final3 m c),
       ((h c).1 2).trans (((dats m 0 c).arrAt_in 2 rfl _).trans (A_eq m c 2)),
       ((h c).1 0).trans (((dats m 0 c).arrAt_in 0 rfl _).trans (A_eq m c 0))⟩)
    (run_main m ρ)

end Cert.KernelIdeal.Hand

end
-- ==== Proof.RefRolled.lean ====
/-
  The reference's result is the function `Cert.Rolled.rolled` of its arguments.
-/
import proofs.«179758_j11879879541211_1_alg».proof.Proof.Gen.ReferenceIdeal.Read
import proofs.«179758_j11879879541211_1_alg».proof.Proof.Rolled
import Idealize.ShloMosaic.Lib.Pipeline.Value
import Idealize.ShloMosaic.Lib.ValueIdx

noncomputable section

namespace Cert.RefRolled

open Cert.ReferenceIdeal Cert.ReferenceIdeal.Gen Cert.ReferenceIdeal.Read Cert.Rolled
open Idealize.ShloMosaic Idealize.ShloMosaic.ValueIdx Idealize.SL.Sem Idealize.ShloMosaic.StableHlo

variable {F : FTy → Type} [FloatOps F]

/-! ## A left fold of overwrites, read at one entry -/

/-- A left fold of steps none of which changes entry `i` leaves entry `i` as it was. -/
theorem foldl_apply_of_miss {ι α κ : Type} (step : (ι → α) → κ → (ι → α)) (i : ι) (l : List κ)
    (h : ∀ r n, n ∈ l → step r n i = r i) (x : ι → α) : l.foldl step x i = x i := by
  induction l generalizing x with
  | nil => rfl
  | cons a t ih =>
    rw [List.foldl_cons, ih (fun r n hn => h r n (List.mem_cons_of_mem _ hn)), h x a List.mem_cons_self]

/-- A left fold of steps each of which leaves entry `i` alone or sets it to `v`, started at an array that holds
    `v` at `i`, ends with `v` at `i`. -/
theorem foldl_apply_of_start {ι α κ : Type} (step : (ι → α) → κ → (ι → α)) (i : ι) (v : α) (l : List κ)
    (h : ∀ r n, n ∈ l → step r n i = r i ∨ step r n i = v) (x : ι → α) (hx : x i = v) : l.foldl step x i = v := by
  induction l generalizing x with
  | nil => exact hx
  | cons a t ih =>
    rw [List.foldl_cons]
    apply ih (fun r n hn => h r n (List.mem_cons_of_mem _ hn))
    rcases h x a List.mem_cons_self with e | e
    · rw [e, hx]
    · exact e

/-- A left fold of steps each of which leaves entry `i` alone or sets it to `v`, one of which sets it to `v`
    whatever the array before it, ends with `v` at `i`. -/
theorem foldl_apply_of_hit {ι α κ : Type} (step : (ι → α) → κ → (ι → α)) (i : ι) (v : α) (l : List κ)
    (h : ∀ r n, n ∈ l → step r n i = r i ∨ step r n i = v) (hit : ∃ n ∈ l, ∀ r, step r n i = v) (x : ι → α) :
    l.foldl step x i = v := by
  induction l generalizing x with
  | nil => obtain ⟨n, hn, _⟩ := hit; cases hn
  | cons a t ih =>
    rw [List.foldl_cons]
    obtain ⟨n, hn, hv⟩ := hit
    rcases List.mem_cons.1 hn with e | hn'
    · subst e
      exact foldl_apply_of_start step i v t (fun r m hm => h r m (List.mem_cons_of_mem _ hm)) _ (hv x)
    · exact ih (fun r m hm => h r m (List.mem_cons_of_mem _ hm)) ⟨n, hn', hv⟩ _

/-! ## Where the scatter writes

The scatter's index vector is the one word `8128` for the row axis, and its window is the whole of the new block: the
block's entry `k` lands in the operand at `k`'s batch entry and column, `8128` rows further down. -/

/-- The entry of the operand the new block's entry `k` is written to. -/
abbrev land (k : S4x64x1024.Idx) : S4x8192x1024.Idx :=
  ix3 (k 0) ⟨(k 1).val + 8128, by have h : (k 1).val < 64 := (k 1).isLt; omega⟩ (k 2)

theorem start0 (k : S4x64x1024.Idx) :
    scatter_S4x8192x1024_S1_S4x64x1024_012_n_1_0.start k (val_main_v1 (F := F)) (0 : Fin 3) = 0 := by
  unfold ScatterDims.start
  rw [dif_neg (by decide)]

theorem start1 (k : S4x64x1024.Idx) :
    scatter_S4x8192x1024_S1_S4x64x1024_012_n_1_0.start k (val_main_v1 (F := F)) (1 : Fin 3) = 8128 := by
  unfold ScatterDims.start
  rw [dif_pos (by decide), val_main_v1_apply, val_main_c_apply]
  decide

theorem start2 (k : S4x64x1024.Idx) :
    scatter_S4x8192x1024_S1_S4x64x1024_012_n_1_0.start k (val_main_v1 (F := F)) (2 : Fin 3) = 0 := by
  unfold ScatterDims.start
  rw [dif_neg (by decide)]

theorem window0 (k : S4x64x1024.Idx) :
    scatter_S4x8192x1024_S1_S4x64x1024_012_n_1_0.window k (0 : Fin 3) = (k 0).val := by
  unfold ScatterDims.window
  rw [dif_pos (by decide)]
  rfl

theorem window1 (k : S4x64x1024.Idx) :
    scatter_S4x8192x1024_S1_S4x64x1024_012_n_1_0.window k (1 : Fin 3) = (k 1).val := by
  unfold ScatterDims.window
  rw [dif_pos (by decide)]
  rfl

theorem window2 (k : S4x64x1024.Idx) :
    scatter_S4x8192x1024_S1_S4x64x1024_012_n_1_0.window k (2 : Fin 3) = (k 2).val := by
  unfold ScatterDims.window
  rw [dif_pos (by decide)]
  rfl

/-- On every axis the window's start plus the window coordinate of `k` is the coordinate of `land k`. -/
theorem start_add_window (k : S4x64x1024.Idx) (a : Fin 3) :
    scatter_S4x8192x1024_S1_S4x64x1024_012_n_1_0.start k (val_main_v1 (F := F)) a
      + scatter_S4x8192x1024_S1_S4x64x1024_012_n_1_0.window k a = ((land k a).val : Int) := by
  match a with
  | ⟨0, _⟩ =>
    show scatter_S4x8192x1024_S1_S4x64x1024_012_n_1_0.start k (val_main_v1 (F := F)) (0 : Fin 3)
      + scatter_S4x8192x1024_S1_S4x64x1024_012_n_1_0.window k (0 : Fin 3) = (((k 0).val : Nat) : Int)
    rw [start0, window0]; omega
  | ⟨1, _⟩ =>
    show scatter_S4x8192x1024_S1_S4x64x1024_012_n_1_0.start k (val_main_v1 (F := F)) (1 : Fin 3)
      + scatter_S4x8192x1024_S1_S4x64x1024_012_n_1_0.window k (1 : Fin 3) = ((((k 1).val + 8128 : Nat)) : Int)
    rw [start1, window1]; omega
  | ⟨2, _⟩ =>
    show scatter_S4x8192x1024_S1_S4x64x1024_012_n_1_0.start k (val_main_v1 (F := F)) (2 : Fin 3)
      + scatter_S4x8192x1024_S1_S4x64x1024_012_n_1_0.window k (2 : Fin 3) = (((k 2).val : Nat) : Int)
    rw [start2, window2]; omega

/-- Every entry of the new block lands inside the operand, at `land k`. -/
theorem resultIdx?_eq (k : S4x64x1024.Idx) :
    scatter_S4x8192x1024_S1_S4x64x1024_012_n_1_0.resultIdx? k (val_main_v1 (F := F)) = some (land k) := by
  unfold ScatterDims.resultIdx?
  have hin : ∀ a : Fin S4x8192x1024.rank,
      0 ≤ scatter_S4x8192x1024_S1_S4x64x1024_012_n_1_0.start k (val_main_v1 (F := F)) a
          + scatter_S4x8192x1024_S1_S4x64x1024_012_n_1_0.window k a ∧
      scatter_S4x8192x1024_S1_S4x64x1024_012_n_1_0.start k (val_main_v1 (F := F)) a
          + scatter_S4x8192x1024_S1_S4x64x1024_012_n_1_0.window k a < S4x8192x1024.size a := by
    intro a
    rw [start_add_window k a]
    exact ⟨Int.natCast_nonneg _, by exact_mod_cast (land k a).isLt⟩
  rw [dif_pos hin]
  congr 1
  funext a
  apply Fin.ext
  show (scatter_S4x8192x1024_S1_S4x64x1024_012_n_1_0.start k (val_main_v1 (F := F)) a
      + scatter_S4x8192x1024_S1_S4x64x1024_012_n_1_0.window k a).toNat = (land k a).val
  rw [start_add_window k a, Int.toNat_natCast]

/-- The row of `land k` is `k`'s row plus `8128`. -/
theorem land_row (k : S4x64x1024.Idx) : (land k 1).val = (k 1).val + 8128 := rfl

/-- An entry of the new block that lands at `j` is the entry at `j`'s batch entry, row less `8128`, and column. -/
theorem eq_of_land_eq (j : S4x8192x1024.Idx) (h : ¬ (j 1).val < 8128) (k : S4x64x1024.Idx) (e : j = land k) :
    k = ix3 (j 0) (newRow (j 1) h) (j 2) := by
  subst e
  funext a
  match a with
  | ⟨0, _⟩ => rfl
  | ⟨1, _⟩ => apply Fin.ext; show (k 1).val = (k 1).val + 8128 - 8128; omega
  | ⟨2, _⟩ => rfl

/-- The entry at `j`'s batch entry, row less `8128`, and column lands at `j`. -/
theorem land_newRow (j : S4x8192x1024.Idx) (h : ¬ (j 1).val < 8128) :
    land (ix3 (j 0) (newRow (j 1) h) (j 2)) = j := by
  funext a
  match a with
  | ⟨0, _⟩ => rfl
  | ⟨1, _⟩ => apply Fin.ext; show (j 1).val - 8128 + 8128 = (j 1).val; omega
  | ⟨2, _⟩ => rfl

/-! ## The operand of the scatter: the two slices of the cache joined along the rows -/

/-- Below row `8128` the joined array reads the cache `64` rows further down. -/
theorem val_main_v0_of_lt (x1 : (⟨S4x8192x1024, .f32⟩ : BufTy).Contents (Elt F)) (j : S4x8192x1024.Idx)
    (h : (j 1).val < 8128) : val_main_v0 (F := F) x1 j = x1 (ix3 (j 0) (cacheRow (j 1) h) (j 2)) := by
  unfold val_main_v0
  have hi : ∀ b : Fin S4x8128x1024.rank,
      ((ix3 (j 0) (⟨(j 1).val, h⟩ : Fin 8128) (j 2) : S4x8128x1024.Idx) b).val
        = (j (b.cast (rfl : S4x8128x1024.rank = S4x8192x1024.rank))).val := fun b => match b with
    | ⟨0, _⟩ => rfl
    | ⟨1, _⟩ => rfl
    | ⟨2, _⟩ => rfl
  rw [concatenate_pair_apply_left (1 : Fin 3) (val_main_call0_v0 (F := F) x1) (val_main_call0_v1 (F := F) x1)
    concatenates_S4x8128x1024_S4x64x1024_S4x8192x1024_d1 j rfl (ix3 (j 0) (⟨(j 1).val, h⟩ : Fin 8128) (j 2)) hi]
  rw [val_main_call0_v0_apply]
  congr 1
  funext a
  match a with
  | ⟨0, _⟩ => rfl
  | ⟨1, _⟩ => apply Fin.ext; show 64 + (j 1).val = (j 1).val + 64; omega
  | ⟨2, _⟩ => rfl

/-! ## The reference's result -/

theorem ref_eq_rolled
    (x0 : (⟨Cert.ReferenceIdeal.S4x64x1024, .f32⟩ : BufTy).Contents (Elt F))
    (x1 : (⟨Cert.ReferenceIdeal.S4x8192x1024, .f32⟩ : BufTy).Contents (Elt F)) :
    Cert.ReferenceIdeal.Read.val_main_v2 (F := F) x0 x1 = Cert.Rolled.rolled x0 x1 := by
  funext j
  unfold val_main_v2 Host.scatter
  by_cases hj : (j 1).val < 8128
  · -- no entry of the new block lands on a row below 8128: the operand's entry stays
    rw [rolled_of_lt _ _ _ hj, ← val_main_v0_of_lt x1 j hj]
    refine foldl_apply_of_miss _ j _ ?_ _
    intro r n _
    simp only [resultIdx?_eq]
    rw [if_neg]
    intro e
    have := congrArg (fun i : S4x8192x1024.Idx => (i 1).val) e
    simp only [land_row] at this
    omega
  · -- the one entry of the new block that lands at `j` is the one `rolled` names
    rw [rolled_of_not_lt _ _ _ hj]
    refine foldl_apply_of_hit _ j _ _ ?_ ?_ _
    · intro r n _
      simp only [resultIdx?_eq]
      by_cases e : j = land (S4x64x1024.rowMajor.symm n)
      · right; rw [if_pos e, eq_of_land_eq j hj _ e]; rfl
      · left; rw [if_neg e]
    · refine ⟨S4x64x1024.rowMajor (ix3 (j 0) (newRow (j 1) hj) (j 2)), List.mem_finRange _, ?_⟩
      intro r
      simp only [resultIdx?_eq, Equiv.symm_apply_apply]
      rw [if_pos (land_newRow j hj).symm]

end Cert.RefRolled
-- ==== Proof.lean ====
/-
  The five claims about the copy kernel and its reference, and their conjunction.

  Both programs produce, from a cache of 8192 rows per batch entry and a new block of 64 rows, the cache moved up by 64
  rows with the new block in its last 64 rows (`Cert.Rolled.rolled`).  The kernel does it tile by tile of 2048 rows,
  reading the cache through two windows on the one array — the current tile, and the 64-row head of the next tile — and
  the new block through a third; the reference slices the cache in two, joins the parts the other way round and scatters
  the new block over the end.  No arithmetic is done on the entries, so nothing here depends on the inputs being finite,
  and the idealized kernel is the kernel's own text read over the extended reals (nothing was rewritten).

  * The two kernels' frames: `Hand.frame` of each (Proof/KernelRun.lean, Proof/IdealRun.lean), the same proof read at
    the word instance and at the ideal one.
  * The reference's frame: its run with the result dropped.
  * The result: the kernel's run read at every entry (Proof/IdealValue.lean) and the reference's run read at every entry
    (Proof/RefRolled.lean) are the one function `rolled` of arguments that agree.
-/
import proofs.«179758_j11879879541211_1_alg».proof.Defs
import proofs.«179758_j11879879541211_1_alg».proof.Proof.Gen.Kernel
import proofs.«179758_j11879879541211_1_alg».proof.Proof.Gen.KernelIdeal
import proofs.«179758_j11879879541211_1_alg».proof.Proof.Gen.ReferenceIdeal
import proofs.«179758_j11879879541211_1_alg».proof.Proof.Gen.Pre_finite_inputs
import proofs.«179758_j11879879541211_1_alg».proof.Proof.Gen.ReferenceIdeal.Run
import proofs.«179758_j11879879541211_1_alg».proof.Proof.Gen.ReferenceIdeal.Read
import proofs.«179758_j11879879541211_1_alg».proof.Proof.KernelRun
import proofs.«179758_j11879879541211_1_alg».proof.Proof.IdealValue
import proofs.«179758_j11879879541211_1_alg».proof.Proof.RefRolled
import Idealize.ShloMosaic.Adequacy
import Idealize.ShloMosaic.Init

noncomputable section

namespace Cert.Proof

open Idealize.ShloMosaic Idealize.ShloMosaic.TcCoe Idealize.SL.Sem

/-- The kernel as printed runs to its end and leaves its arguments unchanged. -/
theorem frame_kernel : Cert.frame_Kernel := fun m ρ _ => Cert.Kernel.Hand.frame m ρ

/-- So does the kernel read over the extended reals. -/
theorem frame_kernelIdeal : Cert.frame_KernelIdeal := fun m ρ _ => Cert.KernelIdeal.Hand.frame m ρ

/-- The reference runs to its end and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was idealized. -/
theorem preserves : Cert.preserves_Kernel_KernelIdeal := trivial

/-- From arguments that agree, the kernel's result array and the reference's both end at `rolled` of the arguments. -/
theorem algebraic : Cert.algebraic_KernelIdeal_ReferenceIdeal := by
  intro m ρ m' ρ' _ hagree
  refine ⟨fun c => Cert.Rolled.rolled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run (F := Ideal) m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v2_eq _ _).trans ((Cert.RefRolled.ref_eq_rolled _ _).trans ?_))
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
